-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S_ : Shape := ⟨0, ![]⟩

class Facts : Prop where
  bcast_S_S1200000 : S_.BroadcastsInDim S1200000 (![] : Fin 0 → Fin S1200000.rank)
  reducesTo_S1200000_S_d0 : S1200000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : IVec S1200000 32) (main_arg1 : IVec S1200000 32) (main_arg2 : FVec F S1200000 .f32) (main_arg3 : FVec F S200000x64 .f32) (main_arg4 : FVec F S100000x64 .f32) (main_arg5 : FVec F S64x64 .f32) : IVec S_ 1 :=
  let main_v0 : FVec F S1200000 .f32 := Host.absf main_arg2
  let main_cst : FVec F S_ .f32 := constant S_ .f32 0x7F800000#32
  let main_v1 : FVec F S1200000 .f32 := broadcastInDim S1200000 ![] bcast_S_S1200000 main_cst
  let main_v2 : IVec S1200000 1 := cmpf .olt main_v0 main_v1
  let main_c : IVec S_ 1 := constantI S_ 1 1#1
  let main_v3 : IVec S_ 1 := (fun x v => Host.reduce IntOp.andi x v reducesTo_S1200000_S_d0 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S300000x64 : Shape := ⟨2, ![300000, 64]⟩
abbrev S1200000x1 : Shape := ⟨2, ![1200000, 1]⟩
abbrev S_ : Shape := ⟨0, ![]⟩
abbrev S1200000x64 : Shape := ⟨2, ![1200000, 64]⟩
abbrev S200000x128 : Shape := ⟨2, ![200000, 128]⟩
abbrev S5000x64 : Shape := ⟨2, ![5000, 64]⟩
abbrev S5000x128 : Shape := ⟨2, ![5000, 128]⟩
abbrev S100000x128 : Shape := ⟨2, ![100000, 128]⟩

abbrev nBuf : Space → Nat
  | .hbm => 27
  | .vmem => 14
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S200000x64, .f32⟩
  | .hbm, ⟨4, _⟩ => ⟨S100000x64, .f32⟩
  | .hbm, ⟨5, _⟩ => ⟨S64x64, .f32⟩
  | .hbm, ⟨6, _⟩ => ⟨S300000x64, .f32⟩
  | .hbm, ⟨7, _⟩ => ⟨S1200000x1, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x64, .f32⟩
  | .hbm, ⟨18, _⟩ => ⟨S1200000x64, .f32⟩
  | .hbm, ⟨19, _⟩ => ⟨S_, .f32⟩
  | .hbm, ⟨20, _⟩ => ⟨S300000x64, .f32⟩
  | .hbm, ⟨21, _⟩ => ⟨S1200000x1, .i32⟩
  | .hbm, ⟨22, _⟩ => ⟨S300000x64, .f32⟩
  | .hbm, ⟨23, _⟩ => ⟨S200000x64, .f32⟩
  | .hbm, ⟨24, _⟩ => ⟨S100000x64, .f32⟩
  | .hbm, ⟨25, _⟩ => ⟨S200000x128, .f32⟩
  | .hbm, ⟨26, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S5000x128, .f32⟩
  | .local _ .vmem, ⟨6, _⟩ => ⟨S5000x128, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S5000x128, .f32⟩
  | .local _ .vmem, ⟨13, _⟩ => ⟨S5000x128, .f32⟩
  | _, _ => ⟨S1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S200000x64_S100000x64_S300000x64_d0 : Shape.Concatenates [S200000x64, S100000x64] S300000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S300000x64 : S_.BroadcastsInDim S300000x64 (![] : Fin 0 → Fin S300000x64.rank)
  slices_S300000x64_S200000x64_0_0 : S300000x64.Slices ![0, 0] S200000x64
  slices_S300000x64_S100000x64_200000_0 : S300000x64.Slices ![200000, 0] S100000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  gather_S300000x64_S1200000x1_S1200000x64_1_0_n_n_0_1_164_wf : GatherDims.WF S300000x64 S1200000x1 S1200000x64 [1] [0] [] [0] [] 1 ![1, 64]
  scatter_S300000x64_S1200000x1_S1200000x64_1_0_0_1_wf : ScatterDims.WF S300000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S200000x128.size a
  hwx0_3 : ∀ i : grid0.Coords, EltTy.bits .f32 = 32 ∨ (Rect.block (s := S200000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def gather_S300000x64_S1200000x1_S1200000x64_1_0_n_n_0_1_164 : GatherDims S300000x64 S1200000x1 S1200000x64 where
  offsetDims := [1]
  collapsedSliceDims := [0]
  operandBatchingDims := []
  startIndicesBatchingDims := []
  startIndexMap := [0]
  indexVectorDim := 1
  sliceSizes := ![1, 64]
  wf := gather_S300000x64_S1200000x1_S1200000x64_1_0_n_n_0_1_164_wf
def scatter_S300000x64_S1200000x1_S1200000x64_1_0_0_1 : ScatterDims S300000x64 S1200000x1 S1200000x64 where
  updateWindowDims := [1]
  insertedWindowDims := [0]
  scatterDimsToOperandDims := [0]
  indexVectorDim := 1
  wf := scatter_S300000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg3) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1200000 : Shape := ⟨1, ![1200000]⟩
abbrev S200000x64 : Shape := ⟨2, ![200000, 64]⟩
abbrev S100000x64 : Shape := ⟨2, ![100000, 64]⟩
abbrev S64x64 : Shape := ⟨2, ![64, 64]⟩
abbrev S300000x64 : Shape := ⟨2, ![300000, 64]⟩
abbrev S1200000x1 : Shape := ⟨2, ![1200000, 1]⟩
abbrev S_ : Shape := ⟨0, ![]⟩
abbrev S1200000x64 : Shape := ⟨2, ![1200000, 64]⟩
abbrev S300000x128 : Shape := ⟨2, ![300000, 128]⟩
abbrev S200000x128 : Shape := ⟨2, ![200000, 128]⟩
abbrev S100000x128 : Shape := ⟨2, ![100000, 128]⟩

abbrev nBuf : Space → Nat
  | .hbm => 39
  | .vmem => 0
  | .smem => 0
  | _ => 0

abbrev bufTy : (tb : Table) → Fin (tcTables nBuf tb) → BufTy
  | .hbm, ⟨0, _⟩ => ⟨S1200000, .i32⟩
  | .hbm, ⟨1, _⟩ => ⟨S1200000, .i32⟩
  | .hbm, ⟨2, _⟩ => ⟨S1200000, .f32⟩
  | .hbm, ⟨3, _⟩ => ⟨S200000x64, .f32⟩
  | .hbm, ⟨4, _⟩ => ⟨S100000x64, .f32⟩
  | .hbm, ⟨5, _⟩ => ⟨S64x64, .f32⟩
  | .hbm, ⟨6, _⟩ => ⟨S300000x64, .f32⟩
  | .hbm, ⟨7, _⟩ => ⟨S1200000x1, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S1200000x64, .f32⟩
  | .hbm, ⟨18, _⟩ => ⟨S1200000x64, .f32⟩
  | .hbm, ⟨19, _⟩ => ⟨S_, .f32⟩
  | .hbm, ⟨20, _⟩ => ⟨S300000x64, .f32⟩
  | .hbm, ⟨21, _⟩ => ⟨S1200000x1, .i32⟩
  | .hbm, ⟨22, _⟩ => ⟨S300000x64, .f32⟩
  | .hbm, ⟨23, _⟩ => ⟨S_, .f32⟩
  | .hbm, ⟨24, _⟩ => ⟨S300000x64, .f32⟩
  | .hbm, ⟨25, _⟩ => ⟨S300000x64, .f32⟩
  | .hbm, ⟨26, _⟩ => ⟨S300000x64, .f32⟩
  | .hbm, ⟨27, _⟩ => ⟨S300000x64, .f32⟩
  | .hbm, ⟨28, _⟩ => ⟨S300000x64, .f32⟩
  | .hbm, ⟨29, _⟩ => ⟨S300000x64, .f32⟩
  | .hbm, ⟨30, _⟩ => ⟨S_, .f32⟩
  | .hbm, ⟨31, _⟩ => ⟨S300000x64, .f32⟩
  | .hbm, ⟨32, _⟩ => ⟨S300000x64, .f32⟩
  | .hbm, ⟨33, _⟩ => ⟨S_, .f32⟩
  | .hbm, ⟨34, _⟩ => ⟨S300000x64, .f32⟩
  | .hbm, ⟨35, _⟩ => ⟨S300000x64, .f32⟩
  | .hbm, ⟨36, _⟩ => ⟨S300000x128, .f32⟩
  | .hbm, ⟨37, _⟩ => ⟨S200000x128, .f32⟩
  | .hbm, ⟨38, _⟩ => ⟨S100000x128, .f32⟩
  | _, _ => ⟨S1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S300000x64 : S_.BroadcastsInDim S300000x64 (![] : Fin 0 → Fin S300000x64.rank)
  concatenates_S300000x64_S300000x64_S300000x128_d1 : Shape.Concatenates [S300000x64, S300000x64] S300000x128 1
  slices_S300000x128_S200000x128_0_0 : S300000x128.Slices ![0, 0] S200000x128
  slices_S300000x128_S100000x128_200000_0 : S300000x128.Slices ![200000, 0] S100000x128
  gather_S300000x64_S1200000x1_S1200000x64_1_0_n_n_0_1_164_wf : GatherDims.WF S300000x64 S1200000x1 S1200000x64 [1] [0] [] [0] [] 1 ![1, 64]
  scatter_S300000x64_S1200000x1_S1200000x64_1_0_0_1_wf : ScatterDims.WF S300000x64 S1200000x1 S1200000x64 [1] [0] [0] 1
  dot_S300000x64_S64x64_S300000x64_1_0_0_1_n_n_wf : DotDims.WF S300000x64 S64x64 S300000x64 [1] [0] [0] [1] [] []

variable [Facts₀]

def gather_S300000x64_S1200000x1_S1200000x64_1_0_n_n_0_1_164 : GatherDims S300000x64 S1200000x1 S1200000x64 where
  offsetDims := [1]
  collapsedSliceDims := [0]
  operandBatchingDims := []
  startIndicesBatchingDims := []
  startIndexMap := [0]
  indexVectorDim := 1
  sliceSizes := ![1, 64]
  wf := gather_S300000x64_S1200000x1_S1200000x64_1_0_n_n_0_1_164_wf
def scatter_S300000x64_S1200000x1_S1200000x64_1_0_0_1 : ScatterDims S300000x64 S1200000x1 S1200000x64 where
  updateWindowDims := [1]
  insertedWindowDims := [0]
  scatterDimsToOperandDims := [0]
  indexVectorDim := 1
  wf := scatter_S300000x64_S1200000x1_S1200000x64_1_0_0_1_wf
def dot_S300000x64_S64x64_S300000x64_1_0_0_1_n_n : DotDims S300000x64 S64x64 S300000x64 where
  lhsContracting := [1]
  rhsContracting := [0]
  lhsNonContracting := [0]
  rhsNonContracting := [1]
  lhsBatch := []
  rhsBatch := []
  wf := dot_S300000x64_S64x64_S300000x64_1_0_0_1_n_n_wf

class Facts : Prop extends Facts₀ where

variable [Facts]
-- ==== Proof.KernelRun.lean ====
/-
  The idealized kernel program's run with its two result arrays named.  The program is a stretch of host operations
  followed by two pipelined regions.  After the run each result array is the fold of its region's write-backs (one block
  of 5000 rows per grid point) over the array's contents when the region was entered, and the argument arrays are as
  launched.  What the written blocks hold is read off the body elsewhere.
-/
import proofs.«146226_j4269197492539_2_alg».proof.Proof.Gen.KernelIdeal.Frame
import Idealize.ShloMosaic.Lib.Pipeline.Value

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result array, after both regions, is what region 0's write-backs left of it: region 1 has no window on it. -/
theorem users_at_exit (c : Dev nD) :
    W3 m ρ c (Proc.devRef .tc main_v16) = (dat0 (V1 m ρ) c).arrAt 3 cfg0.N :=
  (W3_of_ne m ρ c main_v16 (by decide)).trans (W2_arr m ρ c 3)

/-- The second result array, after both regions, is what region 1's write-backs left of it. -/
theorem items_at_exit (c : Dev nD) :
    W3 m ρ c (Proc.devRef .tc main_v17) = (dat1 (V2 m ρ) c).arrAt 3 cfg1.N :=
  W3_arr m ρ c 3

set_option backward.isDefEq.respectTransparency.types false in
/-- The run of the whole program with BOTH RESULT ARRAYS NAMED: every weakly fair execution terminates, nothing
    faulting; the first result array ends at what region 0's write-backs fold to from its entry contents, the second at
    what region 1's do, and the six argument arrays end as launched.  The last thread state holds every unscoped buffer
    at its contents after the second region; the two result arrays and the six arguments are among those buffers. -/
theorem run_named : θ_run defs (onTc (τ := τ) (main (F := F))) ⟨m, fun _ => 0, ρ⟩ (fun r => ∀ c : Dev nD,
      r.2.mem ((c.tc : Thread nD τ).loc main_v16) = (dat0 (V1 m ρ) c).arrAt 3 cfg0.N
      ∧ r.2.mem ((c.tc : Thread nD τ).loc main_v17) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v16 (by decide))).trans (users_at_exit m ρ c),
       (h c _ (mem_uc main_v17 (by decide))).trans (items_at_exit m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Outputs

end
-- ==== Proof.FilterRow.lean ====
/-
  One output row of the spectral filter layer, as a function of that row of the embedding table, that row of the
  aggregate A·E, and the 64 × 64 filter: columns 0 … 63 repeat the embedding row, and column 64 + c holds
  sigmoid(∑ₖ (2·e k − a k) · f k c), the sigmoid being 1 / (1 + exp(−z)) on the extended reals.  Every output row of
  either program depends on its own row of the inputs only, so this one function states the whole result; nothing here
  mentions a program, a block or a grid.
-/
import Idealize.ShloMosaic.PureOps.Ideal
import Idealize.ShloMosaic.PureOps.IdealRules
import Idealize.ShloMosaic.Lib.ValueIdx

noncomputable section

open scoped BigOperators

namespace Cert.FilterRow

open Idealize.ShloMosaic Idealize.ShloMosaic.ValueIdx

/-- The float literal 2.0 as both programs spell it: the same word on both sides, so it is never evaluated. -/
abbrev two : EReal := Ideal.ofBits .f32 0x40000000#32

/-- The filtered part of a row at column `c`: the sigmoid of the row 2·e − a times column `c` of the filter. -/
def filtered (e a : Fin 64 → EReal) (f : Fin 64 → Fin 64 → EReal) (c : Fin 64) : EReal :=
  Ideal.logistic (∑ k : Fin 64, (two * e k - a k) * f k c)

/-- One output row: the embedding row, then the filtered row. -/
def outRow (e a : Fin 64 → EReal) (f : Fin 64 → Fin 64 → EReal) (j : Fin 128) : EReal :=
  if h : j.val < 64 then e ⟨j.val, h⟩ else filtered e a f ⟨j.val - 64, by have := j.isLt; omega⟩

theorem outRow_of_lt (e a : Fin 64 → EReal) (f : Fin 64 → Fin 64 → EReal) (j : Fin 128) (h : j.val < 64) :
    outRow e a f j = e ⟨j.val, h⟩ := dif_pos h

theorem outRow_of_ge (e a : Fin 64 → EReal) (f : Fin 64 → Fin 64 → EReal) (j : Fin 128) (h : ¬ j.val < 64) :
    outRow e a f j = filtered e a f ⟨j.val - 64, by have := j.isLt; omega⟩ := dif_neg h

/-- The row function reads its three inputs only through their values: equal rows and filter give equal output rows. -/
theorem outRow_congr {e e' a a' : Fin 64 → EReal} {f f' : Fin 64 → Fin 64 → EReal} (he : ∀ k, e k = e' k)
    (ha : ∀ k, a k = a' k) (hf : ∀ k c, f k c = f' k c) {j j' : Fin 128} (hj : j.val = j'.val) :
    outRow e a f j = outRow e' a' f' j' := by
  obtain rfl : j = j' := Fin.ext hj
  obtain rfl : e = e' := funext he
  obtain rfl : a = a' := funext ha
  obtain rfl : f = f' := funext fun k => funext (hf k)
  rfl

/-! ## The two results as whole arrays

The embedding table is the users' 200000 rows followed by the items' 100000 rows, and the aggregate has a row for each of
the 300000: output row `r` of the users' result is the output row of users' row `r` and aggregate row `r`, and output
row `r` of the items' result that of items' row `r` and aggregate row `200000 + r`. -/

/-- The users' result, [200000, 128], from the users' embeddings, the whole aggregate and the filter. -/
def usersResult (U : (⟨2, ![200000, 64]⟩ : Shape).Idx → EReal) (A : (⟨2, ![300000, 64]⟩ : Shape).Idx → EReal)
    (W : (⟨2, ![64, 64]⟩ : Shape).Idx → EReal) : (⟨2, ![200000, 128]⟩ : Shape).Idx → EReal := fun i =>
  outRow (fun k => U (ix2 (⟨(i 0).val, idx2_lt0 i⟩ : Fin 200000) k))
    (fun k => A (ix2 (⟨(i 0).val, by have := idx2_lt0 i; omega⟩ : Fin 300000) k))
    (fun k c => W (ix2 k c)) ⟨(i 1).val, idx2_lt1 i⟩

/-- The items' result, [100000, 128], from the items' embeddings, the whole aggregate and the filter. -/
def itemsResult (I : (⟨2, ![100000, 64]⟩ : Shape).Idx → EReal) (A : (⟨2, ![300000, 64]⟩ : Shape).Idx → EReal)
    (W : (⟨2, ![64, 64]⟩ : Shape).Idx → EReal) : (⟨2, ![100000, 128]⟩ : Shape).Idx → EReal := fun i =>
  outRow (fun k => I (ix2 (⟨(i 0).val, idx2_lt0 i⟩ : Fin 100000) k))
    (fun k => A (ix2 (⟨200000 + (i 0).val, by have := idx2_lt0 i; omega⟩ : Fin 300000) k))
    (fun k c => W (ix2 k c)) ⟨(i 1).val, idx2_lt1 i⟩

/-- The float literal 1.0 of the reference's spelt-out sigmoid is the extended real 1. -/
theorem ofBits_one : Ideal.ofBits .f32 0x3F800000#32 = 1 := IdealRules.sign_bit.ideal_onePat .f32

/-- The sigmoid spelt out in host operations, 1 / (1 + exp(−z)) with both ones the literal 1.0, is the one operation. -/
theorem host_sigmoid (z : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) z)))
      = Ideal.logistic z := by
  rw [ofBits_one]; rfl

end Cert.FilterRow

end
-- ==== Proof.BlockRow.lean ====
/-
  What the kernel body stores, read one element at a time.  The body loads a block of 5000 embedding rows, the matching
  block of aggregate rows and the whole filter, and stores the 5000 × 128 block whose row p is the output row of
  embedding row p and aggregate row p: columns below 64 are the first piece of a two-piece concatenation along the
  columns, the others its second piece, a sigmoid of a matrix product into a zero accumulator.  At the extended reals
  the rounding to a narrower format on the way into the product is the identity and the product is the plain sum over
  the contracted axis.
-/
import proofs.«146226_j4269197492539_2_alg».proof.Proof.Gen.KernelIdeal.Skeleton
import proofs.«146226_j4269197492539_2_alg».proof.Proof.FilterRow
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.FilterRow

/-- Where the matrix product reads its operands: at output index `i` and contraction index `q` the left operand is read
    at row `i 0`, column `q`, the right one at row `q`, column `i 1`. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's matrix product into the zero accumulator, at row `p` and column `c`: the sum over the contracted axis
    of the left operand's row `p` times the right operand's column `c`. -/
theorem product_at (l : FVec Ideal S5000x64 .bf16) (r : FVec Ideal S64x64 .bf16) (p : Fin 5000) (c : Fin 64) :
    matmul dot_S5000x64_S64x64_S5000x64_1_0_0_1_n_n none l r (constant (F := Ideal) S5000x64 .f32 0x00000000#32) (ix2 p c)
      = ∑ k : Fin 64, l (ix2 p k) * r (ix2 k c) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p c)
      ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p c)
      ((contrEquiv1 dot_S5000x64_S64x64_S5000x64_1_0_0_1_n_n 64 rfl rfl).symm k) = ix2 k c :=
    funext fun a => Fin.ext (by
      match a with
      | ⟨0, _⟩ => exact (rhs_row _ _).trans hk
      | ⟨1, _⟩ => exact rhs_col _ _)
  rw [el, er]

/-- Row `p`, column `q` of the stored block is the output row of embedding row `p` and aggregate row `p` at `q`. -/
theorem stored_at (x0 x1 : Vec Ideal S5000x64 .f32) (x2 : Vec Ideal S64x64 .f32) (p : Fin 5000) (q : Fin 128) :
    k0_pay1 (F := Ideal) x0 x1 x2 (ix2 p q)
      = outRow (fun k => x0 (ix2 p k)) (fun k => x1 (ix2 p k)) (fun k c => x2 (ix2 k c)) q := by
  unfold k0_pay1
  by_cases hq : q.val < 64
  · rw [outRow_of_lt _ _ _ q hq]
    exact concatenate_pair_apply_left (s₁ := S5000x64) (s₂ := S5000x64) (t := S5000x128) (1 : Fin 2) _ _ _ (ix2 p q) rfl
      (ix2 p (⟨q.val, hq⟩ : Fin 64)) (fun b => by
        match b with
        | ⟨0, _⟩ => rfl
        | ⟨1, _⟩ => rfl)
  · rw [outRow_of_ge _ _ _ q hq]
    have hq' : q.val - 64 < 64 := by have := q.isLt; omega
    refine (concatenate_pair_apply_right (s₁ := S5000x64) (s₂ := S5000x64) (t := S5000x128) (1 : Fin 2) _ _ _ (ix2 p q) rfl rfl
      (ix2 p (⟨q.val - 64, hq'⟩ : Fin 64)) (fun b hb => by
        match b with
        | ⟨0, _⟩ => rfl
        | ⟨1, _⟩ => exact absurd rfl hb) (by show q.val - 64 + 64 = q.val; omega)).trans ?_
    show Ideal.logistic (matmul dot_S5000x64_S64x64_S5000x64_1_0_0_1_n_n none _ _ (constant (F := Ideal) S5000x64 .f32 0x00000000#32) (ix2 p (⟨q.val - 64, hq'⟩ : Fin 64))) = _
    rw [product_at]
    simp only [shapeCast_self]
    rfl

/-- The same at any index `y` of the stored block, against rows and a filter named by the caller: if the loaded
    embedding block's row `y 0` is `e`, the loaded aggregate block's row `y 0` is `a`, the loaded filter is `f`, and
    `q` is the column `y 1`, the stored element is the output row of `e`, `a`, `f` at `q`. -/
theorem stored_eq (x0 x1 : Vec Ideal S5000x64 .f32) (x2 : Vec Ideal S64x64 .f32) (y : S5000x128.Idx)
    (e a : Fin 64 → EReal) (f : Fin 64 → Fin 64 → EReal) (q : Fin 128) (hq : (y 1).val = q.val)
    (he : ∀ k : Fin 64, x0 (ix2 (⟨(y 0).val, idx2_lt0 y⟩ : Fin 5000) k) = e k)
    (ha : ∀ k : Fin 64, x1 (ix2 (⟨(y 0).val, idx2_lt0 y⟩ : Fin 5000) k) = a k)
    (hf : ∀ k c : Fin 64, x2 (ix2 k c) = f k c) :
    k0_pay1 (F := Ideal) x0 x1 x2 y = outRow e a f q := by
  obtain ⟨p, q', rfl⟩ : ∃ (p : Fin 5000) (q' : Fin 128), y = ix2 p q' := ⟨y 0, y 1, eq_ix2 y⟩
  rw [stored_at]
  exact outRow_congr he ha hf hq

/-- The second region's body is the same function of its loads. -/
theorem stored_eq' (x0 x1 : Vec Ideal S5000x64 .f32) (x2 : Vec Ideal S64x64 .f32) (y : S5000x128.Idx)
    (e a : Fin 64 → EReal) (f : Fin 64 → Fin 64 → EReal) (q : Fin 128) (hq : (y 1).val = q.val)
    (he : ∀ k : Fin 64, x0 (ix2 (⟨(y 0).val, idx2_lt0 y⟩ : Fin 5000) k) = e k)
    (ha : ∀ k : Fin 64, x1 (ix2 (⟨(y 0).val, idx2_lt0 y⟩ : Fin 5000) k) = a k)
    (hf : ∀ k c : Fin 64, x2 (ix2 k c) = f k c) :
    k1_pay1 (F := Ideal) x0 x1 x2 y = outRow e a f q :=
  stored_eq x0 x1 x2 y e a f q hq he ha hf

end Cert.KernelIdeal.Body

end
-- ==== Proof.Users.lean ====
/-
  The users' result array after the first region.
  The region's grid has 40 points; point t stages rows 5000·t … 5000·t + 4999 of the users' embeddings and of the
  users' slice of the aggregate, the whole filter, and writes back rows 5000·t … 5000·t + 4999 of the result.  The
  written block's row p is the output row of embedding row 5000·t + p and of aggregate row 5000·t + p, so each
  write-back is its block of ONE whole-array function, and the 40 blocks tile the 200000 rows: the result array ends
  holding that function.
-/
import proofs.«146226_j4269197492539_2_alg».proof.Proof.Gen.KernelIdeal.Frame
import proofs.«146226_j4269197492539_2_alg».proof.Proof.BlockRow
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Users

open Cert.KernelIdeal Cert.KernelIdeal.Gen Cert.KernelIdeal.Body Cert.FilterRow Idealize.ShloMosaic.ValueIdx

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The four index maps over the grid: the two row-blocked inputs and the output move down the rows with the point,
    the filter's one block stays. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The embedding block at point `t` is rows 5000·t … of the embedding array. -/
theorem emb_block (c : Dev nD) (t : Fin cfg0.N) (y : S5000x64.Idx) (i : S200000x64.Idx)
    (h0 : (i 0).val = t.val * 5000 + (y 0).val) (h1 : (i 1).val = (y 1).val) :
    (iblk0 V c 0 t : Vec Ideal S5000x64 .f32) y = (V c main_arg3 : S200000x64.Idx → EReal) i := by
  obtain ⟨e0, e1, -⟩ := block_indices t
  show V c main_arg3 (((cfg0.win 0).blk t).view.emb y) = V c main_arg3 i
  refine congrArg (V c main_arg3) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The aggregate block at point `t` is rows 5000·t … of the region's aggregate slice. -/
theorem agg_block (c : Dev nD) (t : Fin cfg0.N) (y : S5000x64.Idx) (i : S200000x64.Idx)
    (h0 : (i 0).val = t.val * 5000 + (y 0).val) (h1 : (i 1).val = (y 1).val) :
    (iblk0 V c 1 t : Vec Ideal S5000x64 .f32) y = (V c main_v14 : S200000x64.Idx → EReal) i := by
  obtain ⟨-, -, e2, e3, -⟩ := block_indices t
  show V c main_v14 (((cfg0.win 1).blk t).view.emb y) = V c main_v14 i
  refine congrArg (V c main_v14) (funext fun a => Fin.ext ?_)
  match a with
  | ⟨0, _⟩ => show win0_1.index t (0 : Fin 2) * 5000 + 1 * (y 0).val = (i 0).val; rw [e2, h0]; omega
  | ⟨1, _⟩ => show win0_1.index t (1 : Fin 2) * 64 + 1 * (y 1).val = (i 1).val; rw [e3, h1]; omega

/-- The filter block at every point is the whole filter. -/
theorem filt_block (c : Dev nD) (t : Fin cfg0.N) (y : S64x64.Idx) :
    (iblk0 V c 2 t : Vec Ideal S64x64 .f32) y = (V c main_arg5 : S64x64.Idx → EReal) y := by
  obtain ⟨-, -, -, -, e4, e5, -⟩ := block_indices t
  show V c main_arg5 (((cfg0.win 2).blk t).view.emb y) = V c main_arg5 y
  refine congrArg (V c main_arg5) (funext fun a => Fin.ext ?_)
  match a with
  | ⟨0, _⟩ => show win0_2.index t (0 : Fin 2) * 64 + 1 * (y 0).val = (y 0).val; rw [e4]; omega
  | ⟨1, _⟩ => show win0_2.index t (1 : Fin 2) * 64 + 1 * (y 1).val = (y 1).val; rw [e5]; omega

/-- What point `t` writes back is block `t` of the users' result of the arrays as the region finds them, when the
    region's aggregate array is rows 0 … 199999 of a whole aggregate `A`. -/
theorem written_block (c : Dev nD) (A : S300000x64.Idx → EReal)
    (hA : (V c main_v14 : S200000x64.Idx → EReal) = extractStridedSlice S200000x64 ![0, 0] A slices_S300000x64_S200000x64_0_0)
    (t : Fin cfg0.N) :
    (dat0 V c).flushed 3 t
      = ((cfg0.win 3).blk t).view.read (Elt Ideal) (usersResult (V c main_arg3) A (V c main_arg5)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  obtain ⟨-, -, -, -, -, -, e6, e7⟩ := block_indices t
  funext j
  have hj0 : (j 0).val < 5000 := (j 0).isLt
  have hj1 : (j 1).val < 128 := (j 1).isLt
  have ht : t.val < 40 := by have h1 := t.isLt; have h2 : cfg0.N = 40 := N_0; omega
  have r0 : ((((cfg0.win 3).blk t).view.emb j) 0).val = t.val * 5000 + (j 0).val := by
    show win0_3.index t (0 : Fin 2) * 5000 + 1 * (j 0).val = _; rw [e6]; omega
  have r1 : ((((cfg0.win 3).blk t).view.emb j) 1).val = (j 1).val := by
    show win0_3.index t (1 : Fin 2) * 128 + 1 * (j 1).val = _; rw [e7]; omega
  show k0_pay1 (F := Ideal) (iblk0 V c 0 t) (iblk0 V c 1 t) (iblk0 V c 2 t) j = outRow _ _ _ _
  refine stored_eq _ _ _ j _ _ _ _ r1.symm (fun k => ?_) (fun k => ?_) (fun k c' => ?_)
  · exact emb_block V c t _ _ (by show _ = t.val * 5000 + (j 0).val; exact r0) rfl
  · refine (agg_block V c t _ (ix2 (⟨t.val * 5000 + (j 0).val, by omega⟩ : Fin 200000) k) rfl rfl).trans ?_
    rw [hA]
    exact extractStridedSlice_apply _ A _ _ _ (fun a => by
      match a with
      | ⟨0, _⟩ => show ((((cfg0.win 3).blk t).view.emb j) 0).val = 0 + (t.val * 5000 + (j 0).val); rw [r0]; omega
      | ⟨1, _⟩ => show k.val = 0 + k.val; omega)
  · exact filt_block V c t _

/-- An index of the result array is in point `t`'s block iff each coordinate is in the block's range on its axis. -/
theorem mem_block (t : Fin cfg0.N) (i : S200000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every row of the result is in the block of the point its number divided by 5000 names. -/
theorem covered (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 40 := N_0
  have ht : (i 0).val / 5000 < cfg0.N := by rw [hN]; omega
  obtain ⟨-, -, -, -, -, -, e6, e7⟩ := block_indices ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- The result array after the region: the users' result of the embeddings, the whole aggregate and the filter. -/
theorem final (c : Dev nD) (A : S300000x64.Idx → EReal)
    (hA : (V c main_v14 : S200000x64.Idx → EReal) = extractStridedSlice S200000x64 ![0, 0] A slices_S300000x64_S200000x64_0_0) :
    (dat0 V c).arrAt 3 cfg0.N = usersResult (V c main_arg3) A (V c main_arg5) :=
  (dat0 V c).arrAt_eq_of_cover 3 _ (fun t _ => written_block V c A hA t) covered

end Cert.KernelIdeal.Users

end
-- ==== Proof.Items.lean ====
/-
  The items' result array after the second region.
  The region's grid has 20 points; point t stages rows 5000·t … 5000·t + 4999 of the items' embeddings and of the
  items' slice of the aggregate, the whole filter, and writes back rows 5000·t … 5000·t + 4999 of the result.  The
  written block's row p is the output row of embedding row 5000·t + p and of aggregate row 200000 + 5000·t + p, so each
  write-back is its block of ONE whole-array function, and the 20 blocks tile the 100000 rows: the result array ends
  holding that function.
-/
import proofs.«146226_j4269197492539_2_alg».proof.Proof.Gen.KernelIdeal.Frame
import proofs.«146226_j4269197492539_2_alg».proof.Proof.BlockRow
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Items

open Cert.KernelIdeal Cert.KernelIdeal.Gen Cert.KernelIdeal.Body Cert.FilterRow Idealize.ShloMosaic.ValueIdx

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The four index maps over the grid: the two row-blocked inputs and the output move down the rows with the point,
    the filter's one block stays. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The embedding block at point `t` is rows 5000·t … of the embedding array. -/
theorem emb_block (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = (V c main_arg4 : S100000x64.Idx → EReal) i := by
  obtain ⟨e0, e1, -⟩ := block_indices t
  show V c main_arg4 (((cfg1.win 0).blk t).view.emb y) = V c main_arg4 i
  refine congrArg (V c main_arg4) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The aggregate block at point `t` is rows 5000·t … of the region's aggregate slice. -/
theorem agg_block (c : Dev nD) (t : Fin cfg1.N) (y : S5000x64.Idx) (i : S100000x64.Idx)
    (h0 : (i 0).val = t.val * 5000 + (y 0).val) (h1 : (i 1).val = (y 1).val) :
    (iblk1 V c 1 t : Vec Ideal S5000x64 .f32) y = (V c main_v15 : S100000x64.Idx → EReal) i := by
  obtain ⟨-, -, e2, e3, -⟩ := block_indices t
  show V c main_v15 (((cfg1.win 1).blk t).view.emb y) = V c main_v15 i
  refine congrArg (V c main_v15) (funext fun a => Fin.ext ?_)
  match a with
  | ⟨0, _⟩ => show win1_1.index t (0 : Fin 2) * 5000 + 1 * (y 0).val = (i 0).val; rw [e2, h0]; omega
  | ⟨1, _⟩ => show win1_1.index t (1 : Fin 2) * 64 + 1 * (y 1).val = (i 1).val; rw [e3, h1]; omega

/-- The filter block at every point is the whole filter. -/
theorem filt_block (c : Dev nD) (t : Fin cfg1.N) (y : S64x64.Idx) :
    (iblk1 V c 2 t : Vec Ideal S64x64 .f32) y = (V c main_arg5 : S64x64.Idx → EReal) y := by
  obtain ⟨-, -, -, -, e4, e5, -⟩ := block_indices t
  show V c main_arg5 (((cfg1.win 2).blk t).view.emb y) = V c main_arg5 y
  refine congrArg (V c main_arg5) (funext fun a => Fin.ext ?_)
  match a with
  | ⟨0, _⟩ => show win1_2.index t (0 : Fin 2) * 64 + 1 * (y 0).val = (y 0).val; rw [e4]; omega
  | ⟨1, _⟩ => show win1_2.index t (1 : Fin 2) * 64 + 1 * (y 1).val = (y 1).val; rw [e5]; omega

/-- What point `t` writes back is block `t` of the items' result of the arrays as the region finds them, when the
    region's aggregate array is rows 200000 … 299999 of a whole aggregate `A`. -/
theorem written_block (c : Dev nD) (A : S300000x64.Idx → EReal)
    (hA : (V c main_v15 : S100000x64.Idx → EReal) = extractStridedSlice S100000x64 ![200000, 0] A slices_S300000x64_S100000x64_200000_0)
    (t : Fin cfg1.N) :
    (dat1 V c).flushed 3 t
      = ((cfg1.win 3).blk t).view.read (Elt Ideal) (itemsResult (V c main_arg4) A (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz]
  obtain ⟨-, -, -, -, -, -, e6, e7⟩ := block_indices t
  funext j
  have hj0 : (j 0).val < 5000 := (j 0).isLt
  have hj1 : (j 1).val < 128 := (j 1).isLt
  have ht : t.val < 20 := by have h1 := t.isLt; have h2 : cfg1.N = 20 := N_1; omega
  have r0 : ((((cfg1.win 3).blk t).view.emb j) 0).val = t.val * 5000 + (j 0).val := by
    show win1_3.index t (0 : Fin 2) * 5000 + 1 * (j 0).val = _; rw [e6]; omega
  have r1 : ((((cfg1.win 3).blk t).view.emb j) 1).val = (j 1).val := by
    show win1_3.index t (1 : Fin 2) * 128 + 1 * (j 1).val = _; rw [e7]; omega
  show k1_pay1 (F := Ideal) (iblk1 V c 0 t) (iblk1 V c 1 t) (iblk1 V c 2 t) j = outRow _ _ _ _
  refine stored_eq' _ _ _ j _ _ _ _ r1.symm (fun k => ?_) (fun k => ?_) (fun k c' => ?_)
  · exact emb_block V c t _ _ (by show _ = t.val * 5000 + (j 0).val; exact r0) rfl
  · refine (agg_block V c t _ (ix2 (⟨t.val * 5000 + (j 0).val, by omega⟩ : Fin 100000) k) rfl rfl).trans ?_
    rw [hA]
    exact extractStridedSlice_apply _ A _ _ _ (fun a => by
      match a with
      | ⟨0, _⟩ => show 200000 + ((((cfg1.win 3).blk t).view.emb j) 0).val = 200000 + (t.val * 5000 + (j 0).val); rw [r0]
      | ⟨1, _⟩ => show k.val = 0 + k.val; omega)
  · exact filt_block V c t _

/-- An index of the result array is in point `t`'s block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v17).slice (win1_3.rect t)).set ↔ _
  rw [View.set_slice_whole, Rect.mem_set_unit]
  exact Iff.rfl

/-- Every row of the result is in the block of the point its number divided by 5000 names. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, e6, e7⟩ := block_indices ⟨(i 0).val / 5000, ht⟩
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- The result array after the region: the items' result of the embeddings, the whole aggregate and the filter. -/
theorem final (c : Dev nD) (A : S300000x64.Idx → EReal)
    (hA : (V c main_v15 : S100000x64.Idx → EReal) = extractStridedSlice S100000x64 ![200000, 0] A slices_S300000x64_S100000x64_200000_0) :
    (dat1 V c).arrAt 3 cfg1.N = itemsResult (V c main_arg4) A (V c main_arg5) :=
  (dat1 V c).arrAt_eq_of_cover 3 _ (fun t _ => written_block V c A hA t) covered

end Cert.KernelIdeal.Items

end
-- ==== Proof.Entry.lean ====
/-
  What the two regions find in their arrays.  Nineteen host operations run before the first region: they build the
  embedding table, the aggregate A·E (a gather, a product and a scatter-add), and slice the aggregate into its users'
  rows 0 … 199999 and its items' rows 200000 … 299999.  None of them writes an argument array, the first region writes
  only the users' result, and so the second region finds the items' embeddings, the items' slice and the filter exactly
  as the first region did.
-/
import proofs.«146226_j4269197492539_2_alg».proof.Proof.Gen.KernelIdeal.Frame
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- The first region's aggregate array is rows 0 … 199999 of the whole aggregate. -/
theorem users_slice (c : Dev nD) :
    (V1 m ρ c main_v14 : S200000x64.Idx → EReal)
      = extractStridedSlice S200000x64 ![0, 0] (V1 m ρ c main_v13 : S300000x64.Idx → EReal) slices_S300000x64_S200000x64_0_0 := by
  dsimp only [V1, W1, hostOps0]
  after_results_simp <;> rfl

/-- The items' slice, as the first region finds it, is rows 200000 … 299999 of the whole aggregate. -/
theorem items_slice (c : Dev nD) :
    (V1 m ρ c main_v15 : S100000x64.Idx → EReal)
      = extractStridedSlice S100000x64 ![200000, 0] (V1 m ρ c main_v13 : S300000x64.Idx → EReal) slices_S300000x64_S100000x64_200000_0 := by
  dsimp only [V1, W1, hostOps0]
  after_results_simp <;> rfl

/-- The host operations write no argument array. -/
theorem V1_arg3 (c : Dev nD) : V1 m ρ c main_arg3 = m ((c : Thread nD τ).loc main_arg3) := by
  dsimp only [V1, W1, hostOps0]
  after_results_simp <;> rfl
theorem V1_arg4 (c : Dev nD) : V1 m ρ c main_arg4 = m ((c : Thread nD τ).loc main_arg4) := by
  dsimp only [V1, W1, hostOps0]
  after_results_simp <;> rfl
theorem V1_arg5 (c : Dev nD) : V1 m ρ c main_arg5 = m ((c : Thread nD τ).loc main_arg5) := by
  dsimp only [V1, W1, hostOps0]
  after_results_simp <;> rfl

/-- The first region writes only the users' result: the second finds the items' slice, the items' embeddings and the
    filter as the first did. -/
theorem V2_v15 (c : Dev nD) : V2 m ρ c main_v15 = V1 m ρ c main_v15 := W2_of_ne m ρ c main_v15 (by decide)
theorem V2_arg4 (c : Dev nD) : V2 m ρ c main_arg4 = V1 m ρ c main_arg4 := W2_of_ne m ρ c main_arg4 (by decide)
theorem V2_arg5 (c : Dev nD) : V2 m ρ c main_arg5 = V1 m ρ c main_arg5 :=
  (W2_arr m ρ c 2).trans (((dat0 (V1 m ρ) c).arrAt_in 2 rfl _).trans (A_eq0 (V1 m ρ) c 2))

end Cert.KernelIdeal.Entry

end
-- ==== Proof.KernelValue.lean ====
/-
  The idealized kernel program's two results as functions of its arguments.  The first region leaves the users' result
  of the users' embeddings, the whole aggregate and the filter; the second leaves the items' result of the items'
  embeddings, the same aggregate and the filter.  The aggregate stays the one array the host operations computed: both
  programs compute it by the same operations, and nothing here opens it.
-/
import proofs.«146226_j4269197492539_2_alg».proof.Proof.KernelRun
import proofs.«146226_j4269197492539_2_alg».proof.Proof.Users
import proofs.«146226_j4269197492539_2_alg».proof.Proof.Items
import proofs.«146226_j4269197492539_2_alg».proof.Proof.Entry

set_option maxRecDepth 16384

noncomputable section

namespace Cert.KernelIdeal.Result

open Cert.KernelIdeal Cert.KernelIdeal.Gen Cert.KernelIdeal.Entry Cert.FilterRow Idealize.ShloMosaic Idealize.ShloMosaic.TcCoe
  Idealize.SL.Sem

variable (m : (ℓ : Loc nD τ sig) → Buf (Elt Ideal) ℓ) (ρ : Dev nD → PrngReg)

/-- The whole aggregate, [300000, 64], as the host operations leave it before the first region. -/
abbrev aggregate (c : Dev nD) : S300000x64.Idx → EReal := V1 m ρ c main_v13

/-- The users' result array after the first region. -/
theorem users_final (c : Dev nD) :
    (dat0 (V1 m ρ) c).arrAt 3 cfg0.N
      = usersResult (m ((c : Thread nD τ).loc main_arg3)) (aggregate m ρ c) (m ((c : Thread nD τ).loc main_arg5)) :=
  (Users.final (V1 m ρ) c (aggregate m ρ c) (users_slice m ρ c)).trans
    (congrArg₂ (fun (U : S200000x64.Idx → EReal) (W : S64x64.Idx → EReal) => usersResult U (aggregate m ρ c) W)
      (V1_arg3 m ρ c) (V1_arg5 m ρ c))

/-- The items' result array after the second region. -/
theorem items_final (c : Dev nD) :
    (dat1 (V2 m ρ) c).arrAt 3 cfg1.N
      = itemsResult (m ((c : Thread nD τ).loc main_arg4)) (aggregate m ρ c) (m ((c : Thread nD τ).loc main_arg5)) :=
  (Items.final (V2 m ρ) c (aggregate m ρ c) ((V2_v15 m ρ c).trans (items_slice m ρ c))).trans
    (congrArg₂ (fun (I : S100000x64.Idx → EReal) (W : S64x64.Idx → EReal) => itemsResult I (aggregate m ρ c) W)
      ((V2_arg4 m ρ c).trans (V1_arg4 m ρ c)) ((V2_arg5 m ρ c).trans (V1_arg5 m ρ c)))

/-- The run, read: both result arrays at their functions of the arguments and the aggregate, the arguments unchanged. -/
theorem run_values : θ_run defs (onTc (τ := τ) (main (F := Ideal))) ⟨m, fun _ => 0, ρ⟩ (fun r => ∀ c : Dev nD,
      r.2.mem ((c.tc : Thread nD τ).loc main_v16)
          = usersResult (m ((c : Thread nD τ).loc main_arg3)) (aggregate m ρ c) (m ((c : Thread nD τ).loc main_arg5))
      ∧ r.2.mem ((c.tc : Thread nD τ).loc main_v17)
          = itemsResult (m ((c : Thread nD τ).loc main_arg4)) (aggregate m ρ c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (users_final m ρ c), (h c).2.1.trans (items_final m ρ c), (h c).2.2⟩)
    (Cert.KernelIdeal.Outputs.run_named (F := Ideal) m ρ)

end Cert.KernelIdeal.Result

end
-- ==== Proof.RefRows.lean ====
/-
  The reference's two results, row by row.  The reference concatenates the users' and the items' embeddings into one
  table of 300000 rows, forms (2·E − A·E) · filter for the whole table, applies the sigmoid spelt out as
  1 / (1 + exp(−z)), concatenates the table and the filtered table along the columns, and slices rows 0 … 199999 and
  200000 … 299999 out of the result.  Read at a row, each stage depends on that row only: row r of the joined array is
  the output row of table row r and aggregate row r, and table row r is users' row r below 200000 and items' row
  r − 200000 from there on.
-/
import proofs.«146226_j4269197492539_2_alg».proof.Proof.RefRead
import proofs.«146226_j4269197492539_2_alg».proof.Proof.FilterRow
import Idealize.ShloMosaic.Lib.Pipeline.Value
import Idealize.ShloMosaic.Lib.ValueIdx

noncomputable section

open scoped BigOperators

namespace Cert.ReferenceIdeal.Rows

open Cert.ReferenceIdeal Cert.ReferenceIdeal.Gen Cert.ReferenceIdeal.ReadP Idealize.ShloMosaic Idealize.ShloMosaic.ValueIdx
  Cert.FilterRow

/-- A row of the embedding table below 200000 is that row of the users' embeddings. -/
theorem table_row_users (x3 : (⟨S200000x64, .f32⟩ : BufTy).Contents (Elt Ideal)) (x4 : (⟨S100000x64, .f32⟩ : BufTy).Contents (Elt Ideal))
    (r : Nat) (hr : r < 200000) (k : Fin 64) :
    val_main_v0 (F := Ideal) x3 x4 (ix2 (⟨r, by omega⟩ : Fin 300000) k) = x3 (ix2 (⟨r, hr⟩ : Fin 200000) k) := by
  unfold val_main_v0
  exact concatenate_pair_apply_left (s₁ := S200000x64) (s₂ := S100000x64) (t := S300000x64) (0 : Fin 2) _ _ _
    (ix2 (⟨r, by omega⟩ : Fin 300000) k) rfl (ix2 (⟨r, hr⟩ : Fin 200000) k) (fun b => by
      match b with
      | ⟨0, _⟩ => rfl
      | ⟨1, _⟩ => rfl)

/-- A row of the embedding table from 200000 on is the items' row 200000 less. -/
theorem table_row_items (x3 : (⟨S200000x64, .f32⟩ : BufTy).Contents (Elt Ideal)) (x4 : (⟨S100000x64, .f32⟩ : BufTy).Contents (Elt Ideal))
    (r : Nat) (hr : r < 100000) (k : Fin 64) :
    val_main_v0 (F := Ideal) x3 x4 (ix2 (⟨200000 + r, by omega⟩ : Fin 300000) k) = x4 (ix2 (⟨r, hr⟩ : Fin 100000) k) := by
  unfold val_main_v0
  exact concatenate_pair_apply_right (s₁ := S200000x64) (s₂ := S100000x64) (t := S300000x64) (0 : Fin 2) _ _ _
    (ix2 (⟨200000 + r, by omega⟩ : Fin 300000) k) rfl rfl (ix2 (⟨r, hr⟩ : Fin 100000) k) (fun b hb => by
      match b with
      | ⟨0, _⟩ => exact absurd rfl hb
      | ⟨1, _⟩ => rfl) (by show r + 200000 = 200000 + r; omega)

/-- Row `r` of the joined [300000, 128] array is the output row of table row `r` and aggregate row `r`. -/
theorem joined_row (x0 x1 : (⟨S1200000, .i32⟩ : BufTy).Contents (Elt Ideal)) (x2 : (⟨S1200000, .f32⟩ : BufTy).Contents (Elt Ideal)) (x3 : (⟨S200000x64, .f32⟩ : BufTy).Contents (Elt Ideal)) (x4 : (⟨S100000x64, .f32⟩ : BufTy).Contents (Elt Ideal)) (x5 : (⟨S64x64, .f32⟩ : BufTy).Contents (Elt Ideal))
    (r : Fin 300000) (q : Fin 128) :
    val_main_v24 (F := Ideal) x0 x1 x2 x3 x4 x5 (ix2 r q)
      = outRow (fun k => val_main_v0 (F := Ideal) x3 x4 (ix2 r k)) (fun k => val_main_v13 (F := Ideal) x0 x1 x2 x3 x4 (ix2 r k))
          (fun k c => x5 (ix2 k c)) q := by
  unfold val_main_v24
  by_cases hq : q.val < 64
  · rw [outRow_of_lt _ _ _ q hq]
    exact concatenate_pair_apply_left (s₁ := S300000x64) (s₂ := S300000x64) (t := S300000x128) (1 : Fin 2) _ _ _ (ix2 r q) rfl
      (ix2 r (⟨q.val, hq⟩ : Fin 64)) (fun b => by
        match b with
        | ⟨0, _⟩ => rfl
        | ⟨1, _⟩ => rfl)
  · rw [outRow_of_ge _ _ _ q hq]
    have hq' : q.val - 64 < 64 := by have := q.isLt; omega
    refine (concatenate_pair_apply_right (s₁ := S300000x64) (s₂ := S300000x64) (t := S300000x128) (1 : Fin 2) _ _ _ (ix2 r q) rfl rfl
      (ix2 r (⟨q.val - 64, hq'⟩ : Fin 64)) (fun b hb => by
        match b with
        | ⟨0, _⟩ => rfl
        | ⟨1, _⟩ => exact absurd rfl hb) (by show q.val - 64 + 64 = q.val; omega)).trans ?_
    rw [val_main_v23_apply, val_main_v22_apply, val_main_cst_3_apply, val_main_v21_apply, val_main_v20_apply,
      val_main_cst_2_apply, val_main_v19_apply, val_main_v18_apply]
    refine (host_sigmoid _).trans ?_
    unfold filtered
    rw [val_main_v17_apply]
    refine congrArg Ideal.logistic (Finset.sum_congr rfl fun k _ => ?_)
    rw [val_main_v16_apply, val_main_v15_apply, val_main_v14_apply, val_main_cst_1_apply]
    have el : lidx_main_v17 (ix2 r (⟨q.val - 64, hq'⟩ : Fin 64)) k = ix2 r k := funext fun a => Fin.ext (by
      match a with
      | ⟨0, _⟩ => rfl
      | ⟨1, _⟩ => rfl)
    have er : ridx_main_v17 (ix2 r (⟨q.val - 64, hq'⟩ : Fin 64)) k = ix2 k (⟨q.val - 64, hq'⟩ : Fin 64) := funext fun a => Fin.ext (by
      match a with
      | ⟨0, _⟩ => rfl
      | ⟨1, _⟩ => rfl)
    rw [el, er]
    rfl

/-- The reference's first result is the users' result of the users' embeddings, the aggregate and the filter. -/
theorem users_eq (x0 x1 : (⟨S1200000, .i32⟩ : BufTy).Contents (Elt Ideal)) (x2 : (⟨S1200000, .f32⟩ : BufTy).Contents (Elt Ideal)) (x3 : (⟨S200000x64, .f32⟩ : BufTy).Contents (Elt Ideal)) (x4 : (⟨S100000x64, .f32⟩ : BufTy).Contents (Elt Ideal)) (x5 : (⟨S64x64, .f32⟩ : BufTy).Contents (Elt Ideal)) :
    val_main_v25 (F := Ideal) x0 x1 x2 x3 x4 x5 = usersResult x3 (val_main_v13 (F := Ideal) x0 x1 x2 x3 x4) x5 := by
  funext i
  have hi0 : (i 0).val < 200000 := idx2_lt0 i
  have hi1 : (i 1).val < 128 := idx2_lt1 i
  rw [val_main_v25_apply]
  have ei : idx_main_v25 i = ix2 (⟨(i 0).val, by omega⟩ : Fin 300000) (⟨(i 1).val, hi1⟩ : Fin 128) := funext fun a => Fin.ext (by
    match a with
    | ⟨0, _⟩ => rfl
    | ⟨1, _⟩ => rfl)
  rw [ei, joined_row]
  unfold usersResult
  exact outRow_congr (fun k => table_row_users x3 x4 (i 0).val hi0 k) (fun k => rfl) (fun k c => rfl) rfl

/-- The reference's second result is the items' result of the items' embeddings, the aggregate and the filter. -/
theorem items_eq (x0 x1 : (⟨S1200000, .i32⟩ : BufTy).Contents (Elt Ideal)) (x2 : (⟨S1200000, .f32⟩ : BufTy).Contents (Elt Ideal)) (x3 : (⟨S200000x64, .f32⟩ : BufTy).Contents (Elt Ideal)) (x4 : (⟨S100000x64, .f32⟩ : BufTy).Contents (Elt Ideal)) (x5 : (⟨S64x64, .f32⟩ : BufTy).Contents (Elt Ideal)) :
    val_main_v26 (F := Ideal) x0 x1 x2 x3 x4 x5 = itemsResult x4 (val_main_v13 (F := Ideal) x0 x1 x2 x3 x4) x5 := by
  funext i
  have hi0 : (i 0).val < 100000 := idx2_lt0 i
  have hi1 : (i 1).val < 128 := idx2_lt1 i
  rw [val_main_v26_apply]
  have ei : idx_main_v26 i = ix2 (⟨200000 + (i 0).val, by omega⟩ : Fin 300000) (⟨(i 1).val, hi1⟩ : Fin 128) := funext fun a => Fin.ext (by
    match a with
    | ⟨0, _⟩ => rfl
    | ⟨1, _⟩ => rfl)
  rw [ei, joined_row]
  unfold itemsResult
  exact outRow_congr (fun k => table_row_items x3 x4 (i 0).val hi0 k) (fun k => rfl) (fun k c => rfl) rfl

end Cert.ReferenceIdeal.Rows

end
-- ==== Proof.lean ====
/-
  The certificate.  The layer is: E the users' embeddings over the items', A·E the sparse aggregate (a gather of the
  rows of E by the edges' column indices, scaled by the edges' values, scatter-added into the rows named by the edges'
  row indices), and the result concat(E, sigmoid((2·E − A·E) · filter)) along the columns, split into its users' and
  items' rows.  The kernel program computes A·E by the same host operations as the reference, slices it by segment, and
  runs one pipelined region per segment whose body forms 2·e − a, the product with the filter and the sigmoid for a block
  of 5000 rows; the reference does the same on the whole table and slices at the end.  At the extended reals every
  output row is ONE function of its own embedding row, its own aggregate row and the filter (Proof/FilterRow.lean):
  the kernel's blocks tile the rows (Proof/Users.lean, Proof/Items.lean over Proof/BlockRow.lean), the reference's
  stages read at a row give the same function (Proof/RefRows.lean), and the aggregate is the same array on both sides
  because the same operations compute it.  No law beyond reading both sides row by row is used, so the precondition is
  never opened; the idealization rewrote nothing, so its claim is trivial.
-/
import proofs.«146226_j4269197492539_2_alg».proof.Defs
import proofs.«146226_j4269197492539_2_alg».proof.Proof.Gen.Kernel
import proofs.«146226_j4269197492539_2_alg».proof.Proof.Gen.Kernel.Skeleton
import proofs.«146226_j4269197492539_2_alg».proof.Proof.Gen.Kernel.Launch
import proofs.«146226_j4269197492539_2_alg».proof.Proof.Gen.Kernel.Points
import proofs.«146226_j4269197492539_2_alg».proof.Proof.Gen.Kernel.Frame
import proofs.«146226_j4269197492539_2_alg».proof.Proof.Gen.KernelIdeal
import proofs.«146226_j4269197492539_2_alg».proof.Proof.Gen.KernelIdeal.Skeleton
import proofs.«146226_j4269197492539_2_alg».proof.Proof.Gen.KernelIdeal.Launch
import proofs.«146226_j4269197492539_2_alg».proof.Proof.Gen.KernelIdeal.Points
import proofs.«146226_j4269197492539_2_alg».proof.Proof.Gen.KernelIdeal.Frame
import proofs.«146226_j4269197492539_2_alg».proof.Proof.Gen.ReferenceIdeal
import proofs.«146226_j4269197492539_2_alg».proof.Proof.Gen.Pre_finite_inputs
import proofs.«146226_j4269197492539_2_alg».proof.Proof.KernelValue
import proofs.«146226_j4269197492539_2_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.FilterRow

/-- The aggregate the kernel program's host operations leave is the reference's aggregate stage of the same arguments:
    the same gather, product and scatter-add of the same arrays. -/
theorem aggregate_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Result.aggregate m ρ c
      = Cert.ReferenceIdeal.ReadP.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  dsimp only [Cert.KernelIdeal.Result.aggregate, Cert.KernelIdeal.Gen.V1, Cert.KernelIdeal.Gen.W1, Cert.KernelIdeal.Gen.hostOps0]
  after_results_simp <;> rfl

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs, from memories agreeing on the arguments, end with the users' result and the items' result of the
    users' embeddings, the items' embeddings, the aggregate and the filter. -/
theorem algebraic : Cert.algebraic_KernelIdeal_ReferenceIdeal := by
  intro m ρ m' ρ' _ hagree
  refine ⟨fun c => usersResult (m ((c.tc : Thread Cert.KernelIdeal.nD Cert.KernelIdeal.τ).loc Cert.KernelIdeal.main_arg3))
      (Cert.ReferenceIdeal.ReadP.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)),
    fun c => itemsResult (m ((c.tc : Thread Cert.KernelIdeal.nD Cert.KernelIdeal.τ).loc Cert.KernelIdeal.main_arg4))
      (Cert.ReferenceIdeal.ReadP.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2.1.trans ?_, (h c).2.2⟩)
      (Cert.KernelIdeal.Result.run_values m ρ)
    · rw [aggregate_eq m ρ c]
    · rw [aggregate_eq m ρ c]
  · refine (θ_run Cert.ReferenceIdeal.defs _ _).mono (fun r h c => ⟨(h c).1.trans ?_, (h c).2.1.trans ?_, (h c).2.2⟩)
      (Cert.ReferenceIdeal.ValueP.run (F := Ideal) m' ρ')
    · refine (Cert.ReferenceIdeal.ReadP.val_main_v25_eq _ _ _ _ _ _).trans ?_
      rw [Cert.ReferenceIdeal.Rows.users_eq, (hagree c).1, (hagree c).2.1, (hagree c).2.2.1, (hagree c).2.2.2.1,
        (hagree c).2.2.2.2.1, (hagree c).2.2.2.2.2]
    · refine (Cert.ReferenceIdeal.ReadP.val_main_v26_eq _ _ _ _ _ _).trans ?_
      rw [Cert.ReferenceIdeal.Rows.items_eq, (hagree c).1, (hagree c).2.1, (hagree c).2.2.1, (hagree c).2.2.2.1,
        (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
